-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S256x128 : Shape := ⟨2, ![256, 128]⟩
abbrev S256x1 : Shape := ⟨2, ![256, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S8192x128 .f32) (main_arg1 : FVec F S256x128 .f32) (main_arg2 : FVec F S256x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S8192x128 : Shape := ⟨2, ![8192, 128]⟩
abbrev S256x128 : Shape := ⟨2, ![256, 128]⟩
abbrev S256x1 : Shape := ⟨2, ![256, 1]⟩
abbrev S128x128 : Shape := ⟨2, ![128, 128]⟩
abbrev S128x1 : Shape := ⟨2, ![128, 1]⟩
abbrev S_ : Shape := ⟨0, ![]⟩
abbrev S8192x1 : Shape := ⟨2, ![8192, 1]⟩
abbrev S1x8192 : Shape := ⟨2, ![1, 8192]⟩
abbrev S1x128 : Shape := ⟨2, ![1, 128]⟩
abbrev S8192x8192 : Shape := ⟨2, ![8192, 8192]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 17
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256x1, .f32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S128x1, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x1, .f32⟩
  | .hbm, ⟨12, _⟩ => ⟨S8192x128, .f32⟩
  | .hbm, ⟨13, _⟩ => ⟨S8192x1, .f32⟩
  | .hbm, ⟨14, _⟩ => ⟨S1x8192, .f32⟩
  | .hbm, ⟨15, _⟩ => ⟨S1x128, .f32⟩
  | .hbm, ⟨16, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1024x1, .f32⟩
  | .local _ .vmem, ⟨6, _⟩ => ⟨S1024x1, .f32⟩
  | .local _ .vmem, ⟨7, _⟩ => ⟨S1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S256x128_S128x128_0_0 : S256x128.Slices ![0, 0] S128x128
  slices_S256x128_S128x128_128_0 : S256x128.Slices ![128, 0] S128x128
  slices_S256x1_S128x1_0_0 : S256x1.Slices ![0, 0] S128x1
  slices_S256x1_S128x1_128_0 : S256x1.Slices ![128, 0] S128x1
  bcast_S_S8192x128 : S_.BroadcastsInDim S8192x128 (![] : Fin 0 → Fin S8192x128.rank)
  shapeCasts_S8192x1_S1x8192 : S8192x1.ShapeCasts S1x8192
  shapeCasts_S128x1_S1x128 : S128x1.ShapeCasts S1x128
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x8192.size a
  hwx0_5 : ∀ i : grid0.Coords, EltTy.bits .f32 = 32 ∨ (Rect.block (s := S8192x8192) S1024x2048.size (cc0_transform_5 i) (hinb0_5 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S256x128 : Shape := ⟨2, ![256, 128]⟩
abbrev S256x1 : Shape := ⟨2, ![256, 1]⟩
abbrev S128x128 : Shape := ⟨2, ![128, 128]⟩
abbrev S128x1 : Shape := ⟨2, ![128, 1]⟩
abbrev S_ : Shape := ⟨0, ![]⟩
abbrev S8192x1 : Shape := ⟨2, ![8192, 1]⟩
abbrev S128 : Shape := ⟨1, ![128]⟩
abbrev S1x128 : Shape := ⟨2, ![1, 128]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256x1, .f32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S128x1, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x1, .f32⟩
  | .hbm, ⟨12, _⟩ => ⟨S8192x128, .f32⟩
  | .hbm, ⟨13, _⟩ => ⟨S8192x1, .f32⟩
  | .hbm, ⟨14, _⟩ => ⟨S128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S128x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  slices_S256x1_S128x1_0_0 : S256x1.Slices ![0, 0] S128x1
  slices_S256x1_S128x1_128_0 : S256x1.Slices ![128, 0] S128x1
  bcast_S_S8192x128 : S_.BroadcastsInDim S8192x128 (![] : Fin 0 → Fin S8192x128.rank)
  shapeCasts_S128x1_S128 : S128x1.ShapeCasts S128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x128_S128x8192_S8192x8192_1_0_0_1_n_n_wf : DotDims.WF S8192x128 S128x8192 S8192x8192 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibFrameShared.lean ====
/-
  The frame run of a one-region pipeline program whose windows may SHARE an array.

  A kernel handed one array through several input windows (two tilings of one matrix, say) has no
  injective map from windows to arrays, so the array's full share cannot be given to each window.
  What the launch needs instead is how the buffers behind the arrays, each whole at the full share,
  are dealt among the windows: the entailment `hsplit` below, which a certificate proves by halving
  the share of each array that two windows read.

  The statement is the class-A frame run with that one change: the layout facts are taken one by one
  (the windows' facts without distinctness of the arrays), the invariant carried from point to point
  is the core's scoped buffers that are no staging buffer (the body uses nothing else and draws no
  random bits), and the conclusion is the same post: every window's array at what the proof data
  compute for it, every other unscoped buffer as the region found it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

variable {Λ₀ : SL.Sem.Labels} {P : Type} [Fintype P] [DecidableEq P] [∀ e, Nonempty (Val e)]

local notation "𝕄" => MT nD τ sig Unit Val ℕ (UR sig nD τ) ℕ

/-- The frame run when windows may share arrays. `hsplit` deals the arrays' buffers among the windows;
    the invariant is the scoped rest alone (`hΦ`). Concludes `FramePost`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := show (ownU _ : sProp 𝕄) ⊢ BI.own (emb₁ (initOf (cells cfgs hinj) (launchToks cfgs hinj))) from .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr [HU]; · iempintro
      iexact HU)
    (hin := fun c => by
      rw [hΦ]
      iintro ⟨-, Hr⟩
      iexact Hr)
    (hout := fun c => by
      rw [hΦ]
      iintro Hr
      isplitr [Hr]; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.KFrame.lean ====
/-
  The frame of `Kernel`: every weakly fair execution of @main terminates without a fault and leaves
  the three argument arrays as they were.

  @main is three stretches of host operations (the slices of the two weight arrays; relu of z; the four
  products that make the per-row term a = (relu z · W2a) · w3a and the per-column term
  b = (relu z · W2b) · w3a, and the two reshapes that lay b and w3b out as rows) followed by one region
  on an 8 × 4 grid. At grid point (i, j) the region's body reads five blocks — rows [1024 i, 1024 (i+1)) of
  z, rows [2048 j, 2048 (j+1)) of z, the row w3b, rows [1024 i, …) of a, columns [2048 j, …) of b — and
  stores one 1024 × 2048 block of the result. It keeps nothing from one point to the next.

  The one thing out of the ordinary is that the first two windows read the SAME array z at two tilings.
  The array's ownership is therefore halved between them: window 0 holds the left half-share of z's
  buffer, window 1 the right half-share, and each half suffices for the reads the pipeline makes on the
  window's behalf. Every other array is held whole.
-/
import proofs.«132245_j40699110097057_2_alg».proof.Proof.Gen.Kernel.Launch
import proofs.«132245_j40699110097057_2_alg».proof.Proof.Gen.Kernel.Skeleton
import proofs.«132245_j40699110097057_2_alg».proof.Proof.Gen.Kernel.Points
import proofs.«132245_j40699110097057_2_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes z: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the first weight array; -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- nor the second. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it
    is not fetched the block index has not moved since the last fetch. For any proof data whose array is the
    region-entry contents and whose body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each load and the store is of a whole staging buffer -/

abbrev rRow : Rect S1024x128 := Rect.unit (s := S1024x128) ![0, 0] S1024x128.size inb_S1024x128_S1024x128_0_0
abbrev rCol : Rect S2048x128 := Rect.unit (s := S2048x128) ![0, 0] S2048x128.size inb_S2048x128_S2048x128_0_0
abbrev rW : Rect S1x128 := Rect.unit (s := S1x128) ![0, 0] S1x128.size inb_S1x128_S1x128_0_0
abbrev rA : Rect S1024x1 := Rect.unit (s := S1024x1) ![0, 0] S1024x1.size inb_S1024x1_S1024x1_0_0
abbrev rB : Rect S1x2048 := Rect.unit (s := S1x2048) ![0, 0] S1x2048.size inb_S1x2048_S1x2048_0_0
abbrev rOut : Rect S1024x2048 := Rect.unit (s := S1024x2048) ![0, 0] S1024x2048.size inb_S1024x2048_S1024x2048_0_0

/-! ## What the body leaves in the output window's buffer -/

/-- The output staging buffer after the body, from the five input blocks: the one store's payload over the
    whole buffer. -/
def outBlock (xRow : Vec F S1024x128 .f32) (xCol : Vec F S2048x128 .f32) (xW : Vec F S1x128 .f32)
    (xA : Vec F S1024x1 .f32) (xB : Vec F S1x2048 .f32) : Vec F S1024x2048 .f32 :=
  View.canon [⟨rOut, k0_pay1 (View.ld xRow rRow) (View.ld xW rW) (View.ld xCol rCol) (View.ld xA rA) (View.ld xB rB)⟩]

/-- The one store covers the buffer. -/
theorem outCover (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 1000000 in
/-- The body on whole staging memrefs — the five inputs' at read contents, the output's at anything — runs to
    the continuation holding the inputs' as they were and the output's at `outBlock` of the inputs'. -/
theorem sound_kernel (c : Dev nD) (E : Set ℕ) (i : grid0.Coords)
    (arg2 : Memref sig .tc .vmem S1024x128 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S1024x1 .f32) (harg5 : arg5.IsWhole)
    (arg6 : Memref sig .tc .vmem S1x2048 .f32) (harg6 : arg6.IsWhole) (arg7 : Memref sig .tc .vmem S1024x2048 .f32) (harg7 : arg7.IsWhole)
    (xRow : Vec F S1024x128 .f32) (xCol : Vec F S2048x128 .f32) (xW : Vec F S1x128 .f32) (xA : Vec F S1024x1 .f32) (xB : Vec F S1x2048 .f32)
    (K : PUnit → sProp 𝕄) :
    iprop(owns (c : Thread nD τ) arg2 fullShare xRow ∗ owns (c : Thread nD τ) arg3 fullShare xCol ∗ owns (c : Thread nD τ) arg4 fullShare xW
        ∗ owns (c : Thread nD τ) arg5 fullShare xA ∗ owns (c : Thread nD τ) arg6 fullShare xB ∗ (∃ d, owns (c : Thread nD τ) arg7 fullShare d)
        ∗ (iprop(owns (c : Thread nD τ) arg2 fullShare xRow ∗ owns (c : Thread nD τ) arg3 fullShare xCol ∗ owns (c : Thread nD τ) arg4 fullShare xW
            ∗ owns (c : Thread nD τ) arg5 fullShare xA ∗ owns (c : Thread nD τ) arg6 fullShare xB
            ∗ owns (c : Thread nD τ) arg7 fullShare (outBlock xRow xCol xW xA xB)) -∗ K ⟨⟩))
      ⊢ wp frame (wpE (defs₀ (F := F)) Variants.none c none) E (cc0__score_kernel i arg2 harg2 arg3 harg3 arg4 harg4 arg5 harg5 arg6 harg6 arg7 harg7) K := by
  simp only [cc0__score_kernel_eq_skeleton]; unfold cc0__score_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data on core `c`: the arrays as the region finds them; after the body at point `t` each input's
    buffer at its block and the output's at `outBlock` of the five input blocks; the invariant the scoped
    buffers the pipeline does not stage; nothing owed. The two windows on z hold its buffer at the two
    half-shares; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the arrays' buffers among the windows -/

/-- The share a window holds of its array: the two windows on z a half each, the others all of theirs. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- The five distinct buffers behind the six windows' arrays, each held whole, make the six windows' holdings
    at the region's entry: z's buffer is split into its two half-shares, one per window on it; the other four
    buffers go to their windows as they are. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v10) ↦{fullShare} W main_v10)
          ∗ (((c : Thread nD τ).loc main_v6) ↦{fullShare} W main_v6) ∗ (((c : Thread nD τ).loc main_v9) ↦{fullShare} W main_v9)
          ∗ (((c : Thread nD τ).loc main_v11) ↦{fullShare} W main_v11)) :=
  bigSep_eq_bigSepL_of_eq [main_arg0, main_v10, main_v6, main_v9, main_v11] (by decide) (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Pipeline.Dat.arrays
  rw [bigSep_W0]
  rw [(arr_whole0 0).set_eq_univ, (arr_whole0 2).set_eq_univ, (arr_whole0 3).set_eq_univ,
    (arr_whole0 4).set_eq_univ, (arr_whole0 5).set_eq_univ, share_0, share_1, share_2, share_3, share_4, share_5]
  iintro ⟨Hz, Hw, Ha, Hb, Ho⟩
  ihave Hz := (pointsTo_share (PosShare.mem_left_op_right fullShare)).1 $$ Hz
  icases Hz with ⟨Hz0, Hz1⟩
  isplitl [Hz0]; · iexact Hz0
  isplitl [Hz1]; · iexact Hz1
  isplitl [Hw]; · iexact Hw
  isplitl [Ha]; · iexact Ha
  isplitl [Hb]; · iexact Hb
  iexact Ho

/-! ## The run and the frame -/

set_option backward.isDefEq.respectTransparency.types false in
/-- From any memory with zero counters every weakly fair execution of @main terminates, and every final state
    has each window's array at what the proof data compute for it and every other unscoped buffer as the
    region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: z is an input window's array, so it ends at its entry contents, which are the launch contents;
    the two weight arrays are staged by no window and end as the region found them, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Frame

end
-- ==== Proof.KIFrame.lean ====
/-
  The frame of `KernelIdeal`: every weakly fair execution of @main terminates without a fault and leaves
  the three argument arrays as they were.

  @main is three stretches of host operations (the slices of the two weight arrays; relu of z; the four
  products that make the per-row term a = (relu z · W2a) · w3a and the per-column term
  b = (relu z · W2b) · w3a, and the two reshapes that lay b and w3b out as rows) followed by one region
  on an 8 × 4 grid. At grid point (i, j) the region's body reads five blocks — rows [1024 i, 1024 (i+1)) of
  z, rows [2048 j, 2048 (j+1)) of z, the row w3b, rows [1024 i, …) of a, columns [2048 j, …) of b — and
  stores one 1024 × 2048 block of the result. It keeps nothing from one point to the next.

  The one thing out of the ordinary is that the first two windows read the SAME array z at two tilings.
  The array's ownership is therefore halved between them: window 0 holds the left half-share of z's
  buffer, window 1 the right half-share, and each half suffices for the reads the pipeline makes on the
  window's behalf. Every other array is held whole.
-/
import proofs.«132245_j40699110097057_2_alg».proof.Proof.Gen.KernelIdeal.Launch
import proofs.«132245_j40699110097057_2_alg».proof.Proof.Gen.KernelIdeal.Skeleton
import proofs.«132245_j40699110097057_2_alg».proof.Proof.Gen.KernelIdeal.Points
import proofs.«132245_j40699110097057_2_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes z: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the first weight array; -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- nor the second. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it
    is not fetched the block index has not moved since the last fetch. For any proof data whose array is the
    region-entry contents and whose body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each load and the store is of a whole staging buffer -/

abbrev rRow : Rect S1024x128 := Rect.unit (s := S1024x128) ![0, 0] S1024x128.size inb_S1024x128_S1024x128_0_0
abbrev rCol : Rect S2048x128 := Rect.unit (s := S2048x128) ![0, 0] S2048x128.size inb_S2048x128_S2048x128_0_0
abbrev rW : Rect S1x128 := Rect.unit (s := S1x128) ![0, 0] S1x128.size inb_S1x128_S1x128_0_0
abbrev rA : Rect S1024x1 := Rect.unit (s := S1024x1) ![0, 0] S1024x1.size inb_S1024x1_S1024x1_0_0
abbrev rB : Rect S1x2048 := Rect.unit (s := S1x2048) ![0, 0] S1x2048.size inb_S1x2048_S1x2048_0_0
abbrev rOut : Rect S1024x2048 := Rect.unit (s := S1024x2048) ![0, 0] S1024x2048.size inb_S1024x2048_S1024x2048_0_0

/-! ## What the body leaves in the output window's buffer -/

/-- The output staging buffer after the body, from the five input blocks: the one store's payload over the
    whole buffer. -/
def outBlock (xRow : Vec F S1024x128 .f32) (xCol : Vec F S2048x128 .f32) (xW : Vec F S1x128 .f32)
    (xA : Vec F S1024x1 .f32) (xB : Vec F S1x2048 .f32) : Vec F S1024x2048 .f32 :=
  View.canon [⟨rOut, k0_pay1 (View.ld xRow rRow) (View.ld xW rW) (View.ld xCol rCol) (View.ld xA rA) (View.ld xB rB)⟩]

/-- The one store covers the buffer. -/
theorem outCover (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 1000000 in
/-- The body on whole staging memrefs — the five inputs' at read contents, the output's at anything — runs to
    the continuation holding the inputs' as they were and the output's at `outBlock` of the inputs'. -/
theorem sound_kernel (c : Dev nD) (E : Set ℕ) (i : grid0.Coords)
    (arg2 : Memref sig .tc .vmem S1024x128 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S1024x1 .f32) (harg5 : arg5.IsWhole)
    (arg6 : Memref sig .tc .vmem S1x2048 .f32) (harg6 : arg6.IsWhole) (arg7 : Memref sig .tc .vmem S1024x2048 .f32) (harg7 : arg7.IsWhole)
    (xRow : Vec F S1024x128 .f32) (xCol : Vec F S2048x128 .f32) (xW : Vec F S1x128 .f32) (xA : Vec F S1024x1 .f32) (xB : Vec F S1x2048 .f32)
    (K : PUnit → sProp 𝕄) :
    iprop(owns (c : Thread nD τ) arg2 fullShare xRow ∗ owns (c : Thread nD τ) arg3 fullShare xCol ∗ owns (c : Thread nD τ) arg4 fullShare xW
        ∗ owns (c : Thread nD τ) arg5 fullShare xA ∗ owns (c : Thread nD τ) arg6 fullShare xB ∗ (∃ d, owns (c : Thread nD τ) arg7 fullShare d)
        ∗ (iprop(owns (c : Thread nD τ) arg2 fullShare xRow ∗ owns (c : Thread nD τ) arg3 fullShare xCol ∗ owns (c : Thread nD τ) arg4 fullShare xW
            ∗ owns (c : Thread nD τ) arg5 fullShare xA ∗ owns (c : Thread nD τ) arg6 fullShare xB
            ∗ owns (c : Thread nD τ) arg7 fullShare (outBlock xRow xCol xW xA xB)) -∗ K ⟨⟩))
      ⊢ wp frame (wpE (defs₀ (F := F)) Variants.none c none) E (cc0__score_kernel i arg2 harg2 arg3 harg3 arg4 harg4 arg5 harg5 arg6 harg6 arg7 harg7) K := by
  simp only [cc0__score_kernel_eq_skeleton]; unfold cc0__score_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data on core `c`: the arrays as the region finds them; after the body at point `t` each input's
    buffer at its block and the output's at `outBlock` of the five input blocks; the invariant the scoped
    buffers the pipeline does not stage; nothing owed. The two windows on z hold its buffer at the two
    half-shares; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the arrays' buffers among the windows -/

/-- The share a window holds of its array: the two windows on z a half each, the others all of theirs. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- The five distinct buffers behind the six windows' arrays, each held whole, make the six windows' holdings
    at the region's entry: z's buffer is split into its two half-shares, one per window on it; the other four
    buffers go to their windows as they are. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v10) ↦{fullShare} W main_v10)
          ∗ (((c : Thread nD τ).loc main_v6) ↦{fullShare} W main_v6) ∗ (((c : Thread nD τ).loc main_v9) ↦{fullShare} W main_v9)
          ∗ (((c : Thread nD τ).loc main_v11) ↦{fullShare} W main_v11)) :=
  bigSep_eq_bigSepL_of_eq [main_arg0, main_v10, main_v6, main_v9, main_v11] (by decide) (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Pipeline.Dat.arrays
  rw [bigSep_W0]
  rw [(arr_whole0 0).set_eq_univ, (arr_whole0 2).set_eq_univ, (arr_whole0 3).set_eq_univ,
    (arr_whole0 4).set_eq_univ, (arr_whole0 5).set_eq_univ, share_0, share_1, share_2, share_3, share_4, share_5]
  iintro ⟨Hz, Hw, Ha, Hb, Ho⟩
  ihave Hz := (pointsTo_share (PosShare.mem_left_op_right fullShare)).1 $$ Hz
  icases Hz with ⟨Hz0, Hz1⟩
  isplitl [Hz0]; · iexact Hz0
  isplitl [Hz1]; · iexact Hz1
  isplitl [Hw]; · iexact Hw
  isplitl [Ha]; · iexact Ha
  isplitl [Hb]; · iexact Hb
  iexact Ho

/-! ## The run and the frame -/

set_option backward.isDefEq.respectTransparency.types false in
/-- From any memory with zero counters every weakly fair execution of @main terminates, and every final state
    has each window's array at what the proof data compute for it and every other unscoped buffer as the
    region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: z is an input window's array, so it ends at its entry contents, which are the launch contents;
    the two weight arrays are staged by no window and end as the region found them, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Frame

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.KIPayload.lean ====
/-
  What the kernel's body computes, read at one entry of the output block, over the extended reals.

  The body multiplies the row block of z by the weight row (broadcast down the rows), takes the product of
  that with the TRANSPOSE of the column block of z (a matrix product contracting the last axis of both
  operands, into a zero accumulator), adds the row term (a column broadcast across) and the column term (a
  row broadcast down), and applies the logistic function. The two roundings to a narrower float format
  are the identity over the extended reals. So entry (p, q) of the block is

      σ( (a_p + b_q) + Σ_d (zrow_{p,d} · w_d) · zcol_{q,d} ).
-/
import proofs.«132245_j40699110097057_2_alg».proof.Proof.Gen.KernelIdeal.Skeleton
import proofs.«132245_j40699110097057_2_alg».proof.Proof.LibBroadcastTo
import Idealize.ShloMosaic.Lib.Pipeline.Value
import Idealize.ShloMosaic.Lib.ValueIdx
import Idealize.ShloMosaic.PureOps.Ideal.Laws

noncomputable section

open scoped BigOperators

namespace Cert.KernelIdeal.Score

open Cert.KernelIdeal Cert.KernelIdeal.Gen Idealize.ShloMosaic Idealize.ShloMosaic.ValueIdx

/-- The body's matrix product: [1024, 128] by [2048, 128], contracting the last axis of both. -/
abbrev dNT : DotDims S1024x128 S2048x128 S1024x2048 := dot_S1024x128_S2048x128_S1024x2048_1_1_0_0_n_n

/-- On the row axis the left operand is read at the output's row; -/
theorem nt_lhs0 (j : S1024x2048.Idx) (q : dNT.contr.Idx) : (dNT.lhsIdx j q 0).val = (j 0).val := by
  unfold DotDims.lhsIdx
  rw [dif_neg (show ¬(0 : Fin S1024x128.rank) ∈ dNT.lhsBatch by decide), dif_pos (show (0 : Fin S1024x128.rank) ∈ dNT.lhsNonContracting by decide)]
  rfl
/-- on its last axis at the contraction coordinate. -/
theorem nt_lhs1 (j : S1024x2048.Idx) (q : dNT.contr.Idx) : (dNT.lhsIdx j q 1).val = (q ⟨0, by decide⟩).val :=
  dNT.lhsIdx_val_of_single rfl j q
/-- The right operand's ROW is the output's column; -/
theorem nt_rhs0 (j : S1024x2048.Idx) (q : dNT.contr.Idx) : (dNT.rhsIdx j q 0).val = (j 1).val := by
  unfold DotDims.rhsIdx
  rw [dif_neg (show ¬(0 : Fin S2048x128.rank) ∈ dNT.rhsBatch by decide), dif_pos (show (0 : Fin S2048x128.rank) ∈ dNT.rhsNonContracting by decide)]
  rfl
/-- its last axis is read at the contraction coordinate too. -/
theorem nt_rhs1 (j : S1024x2048.Idx) (q : dNT.contr.Idx) : (dNT.rhsIdx j q 1).val = (q ⟨0, by decide⟩).val :=
  dNT.rhsIdx_val_of_single rfl j q

/-- The product into a zero accumulator at entry (p, q): the sum over d of left (p, d) times right (q, d). -/
theorem matmulNT_apply {φ₁ φ₂ : FTy} (l : FVec Ideal S1024x128 φ₁) (r : FVec Ideal S2048x128 φ₂) (p : Fin 1024) (q : Fin 2048) :
    FloatOps.matmul dNT none l r (constant (F := Ideal) S1024x2048 .f32 0x00000000#32) (ix2 p q) = ∑ k : Fin 128, l (ix2 p k) * r (ix2 q k) := by
  rw [Ideal.matmul_constant_zero_apply, ← Equiv.sum_comp (contrEquiv1 dNT 128 rfl rfl).symm]
  refine Finset.sum_congr rfl fun k _ => ?_
  have hk := contrEquiv1_symm_val dNT 128 rfl rfl k
  have el : dNT.lhsIdx (ix2 p q) ((contrEquiv1 dNT 128 rfl rfl).symm k) = ix2 p k := funext fun a => Fin.ext (by
    match a with
    | ⟨0, _⟩ => exact nt_lhs0 _ _
    | ⟨1, _⟩ => exact (nt_lhs1 _ _).trans hk)
  have er : dNT.rhsIdx (ix2 p q) ((contrEquiv1 dNT 128 rfl rfl).symm k) = ix2 q k := funext fun a => Fin.ext (by
    match a with
    | ⟨0, _⟩ => exact nt_rhs0 _ _
    | ⟨1, _⟩ => exact (nt_rhs1 _ _).trans hk)
  rw [el, er]

/-- THE BODY'S PAYLOAD AT ENTRY (p, q). -/
theorem pay_apply (x0 : Vec Ideal S1024x128 .f32) (x1 : Vec Ideal S1x128 .f32) (x6 : Vec Ideal S2048x128 .f32)
    (x9 : Vec Ideal S1024x1 .f32) (x11 : Vec Ideal S1x2048 .f32) (p : Fin 1024) (q : Fin 2048) :
    k0_pay1 (F := Ideal) x0 x1 x6 x9 x11 (ix2 p q)
      = Ideal.logistic ((x9 (ix2 p 0) + x11 (ix2 0 q)) + ∑ k : Fin 128, (x0 (ix2 p k) * x1 (ix2 0 k)) * x6 (ix2 q k)) := by
  unfold k0_pay1
  simp only [shapeCast_self]
  show Ideal.logistic ((broadcastTo S1024x2048 x9 broadcasts_S1024x1_S1024x2048 (ix2 p q)
        + broadcastTo S1024x2048 x11 broadcasts_S1x2048_S1024x2048 (ix2 p q))
      + FloatOps.matmul dNT none (φ₁ := .bf16) (φ₂ := .bf16) (fun i => x0 i * broadcastTo S1024x128 x1 broadcasts_S1x128_S1024x128 i) x6
          (constant (F := Ideal) S1024x2048 .f32 0x00000000#32) (ix2 p q)) = _
  rw [Cert.BroadcastTo.col_apply, Cert.BroadcastTo.row_apply, matmulNT_apply]
  simp only [Cert.BroadcastTo.row_apply]

end Cert.KernelIdeal.Score

end
-- ==== Proof.Spec.lean ====
/-
  The specification: the pair score.

  For an embedding matrix z (8192 × 128), a per-row term a and a per-column term b (both given as
  8192 × 1 columns) and a weight column w (128 × 1), entry (i, j) of the result is

      σ( (a_i + b_j) + Σ_d (z_{i,d} · w_d) · z_{j,d} ),      σ(x) = 1 / (1 + e^{-x}),

  over the extended reals, with the sum taken in the order d = 0, …, 127 and each term associated as
  written. Both programs compute exactly this expression, term for term, so no law of arithmetic — and
  in particular nothing that would need the inputs to be finite — is used to join them.
-/
import Idealize.ShloMosaic.PureOps.Ideal
import Idealize.ShloMosaic.PureOps.Ideal.Laws
import Idealize.ShloMosaic.Lib.ValueIdx

noncomputable section

open scoped BigOperators

namespace Cert.PairScore

open Idealize.ShloMosaic Idealize.ShloMosaic.ValueIdx

/-- The pair score of `z` with row term `a`, column term `b` and weights `w`, entry by entry. -/
def score (a b : (⟨2, ![8192, 1]⟩ : Shape).Idx → EReal) (z : (⟨2, ![8192, 128]⟩ : Shape).Idx → EReal)
    (w : (⟨2, ![128, 1]⟩ : Shape).Idx → EReal) : (⟨2, ![8192, 8192]⟩ : Shape).Idx → EReal :=
  fun i => Ideal.logistic ((a (ix2 (i 0) 0) + b (ix2 (i 1) 0)) + ∑ k : Fin 128, (z (ix2 (i 0) k) * w (ix2 k 0)) * z (ix2 (i 1) k))

theorem score_apply (a b : (⟨2, ![8192, 1]⟩ : Shape).Idx → EReal) (z : (⟨2, ![8192, 128]⟩ : Shape).Idx → EReal)
    (w : (⟨2, ![128, 1]⟩ : Shape).Idx → EReal) (i j : Fin 8192) :
    score a b z w (ix2 i j) = Ideal.logistic ((a (ix2 i 0) + b (ix2 j 0)) + ∑ k : Fin 128, (z (ix2 i k) * w (ix2 k 0)) * z (ix2 j k)) := rfl

/-- The float word of 1.0 is the number one. -/
theorem ofBits_one : Ideal.ofBits .f32 0x3F800000#32 = 1 := by simp [Ideal.ofBits, Ideal.ieee, -EReal.coe_mul]; norm_num

end Cert.PairScore

end
-- ==== Proof.KIValue.lean ====
/-
  What the idealized kernel's result array holds after the run, as one function of the arrays the region
  finds.

  Grid point t = (i, j) writes back the block of rows [1024 i, 1024 (i+1)) and columns [2048 j, 2048 (j+1)).
  Entry (p, q) of that block depends on row 1024 i + p of z and of the row term, on row 2048 j + q of z and
  column 2048 j + q of the column term (laid out as a row), and on the whole weight row. These are exactly
  the rows the entry (1024 i + p, 2048 j + q) of the whole-array function names, because each input
  window's block index follows the output's on the axis it shares with it and is zero on the other. The
  32 blocks tile the 8192 × 8192 array, so the array ends at the whole-array function everywhere.
-/
import proofs.«132245_j40699110097057_2_alg».proof.Proof.KIFrame
import proofs.«132245_j40699110097057_2_alg».proof.Proof.KIPayload
import proofs.«132245_j40699110097057_2_alg».proof.Proof.Spec
import Idealize.ShloMosaic.Lib.Pipeline.Value
import Idealize.ShloMosaic.Lib.StableHlo.Run

set_option maxRecDepth 16384

noncomputable section

open scoped BigOperators

namespace Cert.KernelIdeal.Score

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result as a function of the arrays in the layout the kernel's windows read them in: the row term a
    column, the column term a row, the weights a row. -/
def kscore (A : S8192x1.Idx → EReal) (Brow : S1x8192.Idx → EReal) (Z : S8192x128.Idx → EReal) (Wrow : S1x128.Idx → EReal) :
    S8192x8192.Idx → EReal :=
  fun i => Ideal.logistic ((A (ix2 (i 0) 0) + Brow (ix2 0 (i 1))) + ∑ k : Fin 128, (Z (ix2 (i 0) k) * Wrow (ix2 0 k)) * Z (ix2 (i 1) k))

/-- The four arrays the windows read, as the region finds them: the row term, the column term laid out as a
    row, z, and the weights laid out as a row. -/
abbrev arrA (c : Dev nD) : S8192x1.Idx → EReal := V m c main_v6
abbrev arrB (c : Dev nD) : S1x8192.Idx → EReal := V m c main_v9
abbrev arrZ (c : Dev nD) : S8192x128.Idx → EReal := V m c main_arg0
abbrev arrW (c : Dev nD) : S1x128.Idx → EReal := V m c main_v10

theorem hz : (![0, 0] : Fin 2 → Nat) = fun _ => 0 := funext fun a => by fin_cases a <;> rfl

/-- The printed index maps, decided over the 32 grid points: each input window's block index is the output's
    on the shared axis and zero on the other; the output's block indices stay in their ranges. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 3 :=
  (by decide +kernel : ∀ t : Fin grid0.N, _)

/-- Every block of the 8 × 4 tiling is some point's. -/
theorem idx_onto : ∀ (q0 : Fin 8) (q1 : Fin 4), ∃ t : Fin cfg0.N, win0_5.index t = ![q0.val, q1.val] :=
  (by decide +kernel : ∀ (q0 : Fin 8) (q1 : Fin 4), ∃ t : Fin grid0.N, win0_5.index t = ![q0.val, q1.val])

/-- WHAT POINT t WRITES BACK is block t of the whole-array function of the arrays as the region finds them. -/
theorem flushed_eq (c : Dev nD) (t : Fin cfg0.N) :
    (dats m 0 c).flushed 5 t = ((cfg0.win 5).blk t).view.read (Elt Ideal)
      (kscore (arrA m c) (arrB m c) (arrZ m c) (arrW m c)) := by
  show (cfg0.win 5).cut (grid0.coords t) ((dats m 0 c).after 5 t) = _
  rw [after_5]
  unfold outBlock
  rw [View.canon_unit_zero hz]
  simp only [View.ld_unit_zero (S := S1024x128) hz, View.ld_unit_zero (S := S2048x128) hz, View.ld_unit_zero (S := S1x128) hz,
    View.ld_unit_zero (S := S1024x1) hz, View.ld_unit_zero (S := S1x2048) hz]
  obtain ⟨e00, e01, e10, e11, e20, e21, e30, e31, e40, e41, b0, b1⟩ := idx_facts t
  funext j
  obtain ⟨p, q, rfl⟩ : ∃ (p : Fin 1024) (q : Fin 2048), j = ix2 p q := ⟨j 0, j 1, eq_ix2 j⟩
  refine (pay_apply _ _ _ _ _ p q).trans ?_
  have hp : p.val < 1024 := p.isLt
  have hq : q.val < 2048 := q.isLt
  have h3 : ((cfg0.win 3).blk t).view.emb (ix2 p (0 : Fin 1)) = ix2 ((((cfg0.win 5).blk t).view.emb (ix2 p q)) 0) (0 : Fin 1) := by
    funext a; apply Fin.ext
    match a with
    | ⟨0, _⟩ => show win0_3.index t (0 : Fin 2) * 1024 + 1 * p.val = win0_5.index t (0 : Fin 2) * 1024 + 1 * p.val; omega
    | ⟨1, _⟩ => show win0_3.index t (1 : Fin 2) * 1 + 1 * 0 = 0; omega
  have h4 : ((cfg0.win 4).blk t).view.emb (ix2 (0 : Fin 1) q) = ix2 (0 : Fin 1) ((((cfg0.win 5).blk t).view.emb (ix2 p q)) 1) := by
    funext a; apply Fin.ext
    match a with
    | ⟨0, _⟩ => show win0_4.index t (0 : Fin 2) * 1 + 1 * 0 = 0; omega
    | ⟨1, _⟩ => show win0_4.index t (1 : Fin 2) * 2048 + 1 * q.val = win0_5.index t (1 : Fin 2) * 2048 + 1 * q.val; omega
  have h0 : ∀ k : Fin 128, ((cfg0.win 0).blk t).view.emb (ix2 p k) = ix2 ((((cfg0.win 5).blk t).view.emb (ix2 p q)) 0) k := fun k => by
    funext a; apply Fin.ext
    match a with
    | ⟨0, _⟩ => show win0_0.index t (0 : Fin 2) * 1024 + 1 * p.val = win0_5.index t (0 : Fin 2) * 1024 + 1 * p.val; omega
    | ⟨1, _⟩ => show win0_0.index t (1 : Fin 2) * 128 + 1 * k.val = k.val; omega
  have h1 : ∀ k : Fin 128, ((cfg0.win 1).blk t).view.emb (ix2 q k) = ix2 ((((cfg0.win 5).blk t).view.emb (ix2 p q)) 1) k := fun k => by
    funext a; apply Fin.ext
    match a with
    | ⟨0, _⟩ => show win0_1.index t (0 : Fin 2) * 2048 + 1 * q.val = win0_5.index t (1 : Fin 2) * 2048 + 1 * q.val; omega
    | ⟨1, _⟩ => show win0_1.index t (1 : Fin 2) * 128 + 1 * k.val = k.val; omega
  have h2 : ∀ k : Fin 128, ((cfg0.win 2).blk t).view.emb (ix2 (0 : Fin 1) k) = ix2 (0 : Fin 1) k := fun k => by
    funext a; apply Fin.ext
    match a with
    | ⟨0, _⟩ => show win0_2.index t (0 : Fin 2) * 1 + 1 * 0 = 0; omega
    | ⟨1, _⟩ => show win0_2.index t (1 : Fin 2) * 128 + 1 * k.val = k.val; omega
  show Ideal.logistic ((arrA m c (((cfg0.win 3).blk t).view.emb (ix2 p (0 : Fin 1))) + arrB m c (((cfg0.win 4).blk t).view.emb (ix2 (0 : Fin 1) q)))
      + ∑ k : Fin 128, (arrZ m c (((cfg0.win 0).blk t).view.emb (ix2 p k)) * arrW m c (((cfg0.win 2).blk t).view.emb (ix2 (0 : Fin 1) k)))
          * arrZ m c (((cfg0.win 1).blk t).view.emb (ix2 q k)))
    = kscore (arrA m c) (arrB m c) (arrZ m c) (arrW m c) (((cfg0.win 5).blk t).view.emb (ix2 p q))
  rw [h3, h4]
  simp only [h0, h1, h2]
  rfl

/-- An index of the array is in point t's block iff each coordinate is in the block's range on its axis. -/
theorem mem_blk (t : Fin cfg0.N) (i : S8192x8192.Idx) :
    i ∈ ((cfg0.win 5).blk t).view.set ↔ ∀ a : Fin 2, win0_5.index t a * S1024x2048.size a ≤ (i a).val ∧ (i a).val < win0_5.index t a * S1024x2048.size a + S1024x2048.size a := by
  show i ∈ ((View.whole main_v11).slice (win0_5.rect t)).set ↔ _
  rw [View.set_slice_whole, Rect.mem_set_unit]
  exact Iff.rfl

/-- Every index of the array is in some point's block: the point whose block indices are the quotients of the
    coordinates by the block's extents. -/
theorem covered (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_5.index t (0 : Fin 2) = (i 0).val / 1024 := congrFun ht 0
  have q1 : win0_5.index t (1 : Fin 2) = (i 1).val / 2048 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 2048 ≤ (i 1).val ∧ (i 1).val < win0_5.index t (1 : Fin 2) * 2048 + 2048; omega

/-- THE RESULT ARRAY after the run. -/
theorem final (c : Dev nD) : (dats m 0 c).arrAt 5 cfg0.N = kscore (arrA m c) (arrB m c) (arrZ m c) (arrW m c) :=
  (dats m 0 c).arrAt_eq_of_cover 5 _ (fun t _ => flushed_eq m c t) covered

/-- THE RUN, READ: the result array at the whole-array function, the three argument arrays unchanged. -/
theorem run : θ_run defs (onTc (τ := τ) (main (F := Ideal))) ⟨m, fun _ => 0, ρ⟩ fun r => ∀ c : Dev nD,
      r.2.mem ((c.tc : Thread nD τ).loc main_v11) = kscore (arrA m c) (arrB m c) (arrZ m c) (arrW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Score

end
-- ==== Proof.RefValue.lean ====
/-
  The reference's result is the pair score of z with the reference's own row term, column term and weight
  column.

  Read one operation at a time: the final quotient 1 / (1 + e^{-x}) is the logistic function of x (the float
  word of 1.0 is the number one); x at entry (i, j) is (a_i + b_j) + m_{i,j}; the row term broadcast across
  the columns is read at (i, 0); the column term, transposed to a row and broadcast down, is read at (j, 0);
  and the product m = (z ∘ w) · zᵀ at (i, j) is the sum over d of (z_{i,d} · w_d) · z_{j,d}, the weight
  column having been reshaped to a vector, laid as a row and broadcast down the rows, and the transpose of z
  being read at (j, d).
-/
import proofs.«132245_j40699110097057_2_alg».proof.Defs
import proofs.«132245_j40699110097057_2_alg».proof.Proof.Gen.ReferenceIdeal.Read
import proofs.«132245_j40699110097057_2_alg».proof.Proof.Spec

noncomputable section

open scoped BigOperators

namespace Cert.ReferenceIdeal.RefValue

open Cert.ReferenceIdeal Cert.ReferenceIdeal.Read Idealize.ShloMosaic Idealize.ShloMosaic.ValueIdx

/-- THE REFERENCE IS THE PAIR SCORE. -/
theorem ref_eq (x0 : (⟨S8192x128, .f32⟩ : BufTy).Contents (Elt Ideal)) (x1 : (⟨S256x128, .f32⟩ : BufTy).Contents (Elt Ideal))
    (x2 : (⟨S256x1, .f32⟩ : BufTy).Contents (Elt Ideal)) :
    val_main_v25 (F := Ideal) x0 x1 x2
      = Cert.PairScore.score (val_main_v6 (F := Ideal) x0 x1 x2) (val_main_v8 (F := Ideal) x0 x1 x2) x0 (val_main_v3 (F := Ideal) x2) := by
  funext i
  obtain ⟨p, q, rfl⟩ : ∃ (p q : Fin 8192), i = ix2 p q := ⟨i 0, i 1, eq_ix2 i⟩
  have ea : idx_main_v16 (ix2 p q) = ix2 p (0 : Fin 1) :=
    funext fun a => Fin.ext (by match a with | ⟨0, _⟩ => rfl | ⟨1, _⟩ => rfl)
  have eb : idx_main_v15 (idx_main_v17 (ix2 p q)) = ix2 q (0 : Fin 1) :=
    funext fun a => Fin.ext (by match a with | ⟨0, _⟩ => rfl | ⟨1, _⟩ => rfl)
  have el : ∀ k : Fin 128, lidx_main_v14 (ix2 p q) k = ix2 p k := fun k =>
    funext fun a => Fin.ext (by match a with | ⟨0, _⟩ => rfl | ⟨1, _⟩ => rfl)
  have er : ∀ k : Fin 128, idx_main_v13 (ridx_main_v14 (ix2 p q) k) = ix2 q k := fun k =>
    funext fun a => Fin.ext (by match a with | ⟨0, _⟩ => rfl | ⟨1, _⟩ => rfl)
  have ew : ∀ k : Fin 128, idx_main_v9 (idx_main_v10 (idx_main_v11 (ix2 p k))) = ix2 k (0 : Fin 1) := fun k =>
    funext fun a => Fin.ext (by match a with | ⟨0, _⟩ => exact Nat.div_one _ | ⟨1, _⟩ => rfl)
  rw [val_main_v25_apply, val_main_v24_apply, val_main_cst_0_apply, val_main_v23_apply, val_main_v22_apply, val_main_cst_apply,
    val_main_v21_apply, val_main_v20_apply, val_main_v19_apply, val_main_v18_apply, val_main_v16_apply, val_main_v17_apply,
    val_main_v15_apply, val_main_v14_apply, ea, eb]
  simp only [val_main_v12_apply, val_main_v11_apply, val_main_v10_apply, val_main_v9_apply, val_main_v13_apply, el, er, ew]
  rw [Cert.PairScore.score_apply]
  simp only [Ideal.ofBits_def, Cert.PairScore.ofBits_one]
  rfl

end Cert.ReferenceIdeal.RefValue

end
-- ==== Proof.Bridge.lean ====
/-
  The arrays the kernel's windows read are the reference's own intermediate values.

  Before the region the kernel's @main computes, by the same host operations as the reference, the row term
  a = (relu z · W2a) · w3a and the column term b = (relu z · W2b) · w3a, and slices the weight column w3b.
  It then lays b out as a row [1, 8192] and w3b as a row [1, 128] by reshapes: entry (0, j) of the row is
  entry (j, 0) of the column. So the whole-array function of the kernel's four window arrays is the pair
  score of z with the reference's row term, column term and weight column.
-/
import proofs.«132245_j40699110097057_2_alg».proof.Proof.KIValue
import proofs.«132245_j40699110097057_2_alg».proof.Proof.RefValue

noncomputable section

open scoped BigOperators

namespace Cert.Bridge

open Cert.KernelIdeal Cert.KernelIdeal.Gen Cert.KernelIdeal.Frame Cert.KernelIdeal.Score
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The three argument arrays as launched. -/
abbrev x0 (c : Dev nD) : S8192x128.Idx → EReal := m ((c.tc : Thread nD τ).loc main_arg0)
abbrev x1 (c : Dev nD) : S256x128.Idx → EReal := m ((c.tc : Thread nD τ).loc main_arg1)
abbrev x2 (c : Dev nD) : S256x1.Idx → EReal := m ((c.tc : Thread nD τ).loc main_arg2)

/-- Window 3's array is the reference's row term. -/
theorem arrA_eq (c : Dev nD) : arrA m c = Cert.ReferenceIdeal.Read.val_main_v6 (F := Ideal) (x0 m c) (x1 m c) (x2 m c) := by
  show (V m c main_v6 : S8192x1.Idx → EReal) = _
  dsimp only [V]
  simp only [hostOps0, hostOps0_1, hostOps0_2, List.flatten_cons, List.flatten_nil, List.append_nil, List.cons_append, List.nil_append]
  after_results
  rfl

/-- Window 4's array is the reference's column term reshaped to a row. -/
theorem arrB_eq (c : Dev nD) : arrB m c
    = shapeCast S1x8192 (Cert.ReferenceIdeal.Read.val_main_v8 (F := Ideal) (x0 m c) (x1 m c) (x2 m c)) Facts₀.shapeCasts_S8192x1_S1x8192 := by
  show (V m c main_v9 : S1x8192.Idx → EReal) = _
  dsimp only [V]
  simp only [hostOps0, hostOps0_1, hostOps0_2, List.flatten_cons, List.flatten_nil, List.append_nil, List.cons_append, List.nil_append]
  after_results
  rfl

/-- Window 2's array is the weight column reshaped to a row. -/
theorem arrW_eq (c : Dev nD) : arrW m c
    = shapeCast S1x128 (Cert.ReferenceIdeal.Read.val_main_v3 (F := Ideal) (x2 m c)) Facts₀.shapeCasts_S128x1_S1x128 := by
  show (V m c main_v10 : S1x128.Idx → EReal) = _
  dsimp only [V]
  simp only [hostOps0, hostOps0_1, hostOps0_2, List.flatten_cons, List.flatten_nil, List.append_nil, List.cons_append, List.nil_append]
  after_results
  rfl

/-- Entry (0, j) of the column term's row is entry (j, 0) of the column. -/
theorem arrB_apply (c : Dev nD) (j : Fin 8192) :
    arrB m c (ix2 (0 : Fin 1) j) = Cert.ReferenceIdeal.Read.val_main_v8 (F := Ideal) (x0 m c) (x1 m c) (x2 m c) (ix2 j (0 : Fin 1)) := by
  rw [arrB_eq]
  exact shapeCast_apply _ _ (ix2 (0 : Fin 1) j) (ix2 j (0 : Fin 1)) (by
    rw [Shape.rowMajor_val_two, Shape.rowMajor_val_two]; show j.val * 1 + 0 = 0 * 8192 + j.val; omega)

/-- Entry (0, k) of the weight row is entry (k, 0) of the weight column. -/
theorem arrW_apply (c : Dev nD) (k : Fin 128) :
    arrW m c (ix2 (0 : Fin 1) k) = Cert.ReferenceIdeal.Read.val_main_v3 (F := Ideal) (x2 m c) (ix2 k (0 : Fin 1)) := by
  rw [arrW_eq]
  exact shapeCast_apply _ _ (ix2 (0 : Fin 1) k) (ix2 k (0 : Fin 1)) (by
    rw [Shape.rowMajor_val_two, Shape.rowMajor_val_two]; show k.val * 1 + 0 = 0 * 128 + k.val; omega)

/-- THE KERNEL'S RESULT IS THE PAIR SCORE of the launch arrays' z with the reference's terms. -/
theorem kernel_eq_score (c : Dev nD) :
    kscore (arrA m c) (arrB m c) (arrZ m c) (arrW m c)
      = Cert.PairScore.score (Cert.ReferenceIdeal.Read.val_main_v6 (F := Ideal) (x0 m c) (x1 m c) (x2 m c))
          (Cert.ReferenceIdeal.Read.val_main_v8 (F := Ideal) (x0 m c) (x1 m c) (x2 m c)) (x0 m c)
          (Cert.ReferenceIdeal.Read.val_main_v3 (F := Ideal) (x2 m c)) := by
  funext i
  obtain ⟨p, q, rfl⟩ : ∃ (p q : Fin 8192), i = ix2 p q := ⟨i 0, i 1, eq_ix2 i⟩
  show Ideal.logistic ((arrA m c (ix2 p (0 : Fin 1)) + arrB m c (ix2 (0 : Fin 1) q))
      + ∑ k : Fin 128, (arrZ m c (ix2 p k) * arrW m c (ix2 (0 : Fin 1) k)) * arrZ m c (ix2 q k)) = _
  rw [arrA_eq, arrB_apply, show arrZ m c = x0 m c from V_main_arg0 m c, Cert.PairScore.score_apply]
  refine congrArg Ideal.logistic (congrArg (_ + ·) (Finset.sum_congr rfl fun k _ => ?_))
  rw [arrW_apply]

end Cert.Bridge

end
-- ==== Proof.lean ====
/-
  The certificate: a fused pair-score kernel against its jnp reference.

  Both programs compute, for an embedding matrix z (8192 × 128) and two weight arrays,

      out_{i,j} = σ( (a_i + b_j) + Σ_d (z_{i,d} · w_d) · z_{j,d} ),   σ(x) = 1 / (1 + e^{-x}),

  where a = (relu z · W2a) · w3a and b = (relu z · W2b) · w3a are computed by the same host operations
  in both, and w = w3b. The reference forms (z ∘ w) · zᵀ as one 8192 × 8192 product; the kernel tiles the
  result 8 × 4 and, per tile, multiplies a 1024-row block of z ∘ w by the transpose of a 2048-row block of
  z. Over the extended reals the two are the same expression entry by entry: the same terms summed in the
  same order, the roundings to a narrower format the identity, the kernel's one logistic operation the
  reference's quotient. Nothing is reassociated or distributed, so the finiteness of the inputs is never
  used.

  The five claims:
  * the three frames — each program runs to the end without a fault and leaves its arguments unchanged.
    The kernel reads z through two windows at two tilings, so z's buffer is held by halves, one half-share
    per window (the frame modules); the reference has no kernel and its frame is its run with the result
    dropped;
  * the idealized kernel is the kernel's own text read over the extended reals: the ideal pass rewrote
    nothing, and the claim about it is the trivial one;
  * the two idealized programs end with equal results: the kernel's result array is the pair score of the
    arrays its windows read (the value module), those arrays are the reference's own intermediate values
    (the bridge), and the reference's result is the pair score of them (the reference module).
-/
import proofs.«132245_j40699110097057_2_alg».proof.Defs
import proofs.«132245_j40699110097057_2_alg».proof.Proof.Gen.Kernel
import proofs.«132245_j40699110097057_2_alg».proof.Proof.Gen.KernelIdeal
import proofs.«132245_j40699110097057_2_alg».proof.Proof.Gen.ReferenceIdeal
import proofs.«132245_j40699110097057_2_alg».proof.Proof.Gen.Pre_finite_inputs
import proofs.«132245_j40699110097057_2_alg».proof.Proof.Gen.ReferenceIdeal.Run
import proofs.«132245_j40699110097057_2_alg».proof.Proof.Gen.ReferenceIdeal.Read
import proofs.«132245_j40699110097057_2_alg».proof.Proof.KFrame
import proofs.«132245_j40699110097057_2_alg».proof.Proof.KIFrame
import proofs.«132245_j40699110097057_2_alg».proof.Proof.KIValue
import proofs.«132245_j40699110097057_2_alg».proof.Proof.RefValue
import proofs.«132245_j40699110097057_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the pair score of the launch arrays: the kernel by its value run and the
    bridge, the reference by its generated run read one operation at a time. -/
theorem algebraic : Cert.algebraic_KernelIdeal_ReferenceIdeal := by
  intro m ρ m' ρ' _ hagree
  refine ⟨fun c => Cert.PairScore.score
      (Cert.ReferenceIdeal.Read.val_main_v6 (F := Ideal) (Cert.Bridge.x0 m c) (Cert.Bridge.x1 m c) (Cert.Bridge.x2 m c))
      (Cert.ReferenceIdeal.Read.val_main_v8 (F := Ideal) (Cert.Bridge.x0 m c) (Cert.Bridge.x1 m c) (Cert.Bridge.x2 m c))
      (Cert.Bridge.x0 m c) (Cert.ReferenceIdeal.Read.val_main_v3 (F := Ideal) (Cert.Bridge.x2 m c)), ?_, ?_⟩
  · exact (θ_run Cert.KernelIdeal.defs _ _).mono (fun _ h c => ⟨(h c).1.trans (Cert.Bridge.kernel_eq_score m c), (h c).2⟩)
      (Cert.KernelIdeal.Score.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
